-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 22
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S_, .f32⟩
  | .hbm, ⟨13, _⟩ => ⟨S4096, .f32⟩
  | .hbm, ⟨14, _⟩ => ⟨S4096, .i1⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  bcast_S_S4096 : S_.BroadcastsInDim S4096 (![] : Fin 0 → Fin S4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096, .i1⟩
  | .hbm, ⟨14, _⟩ => ⟨S_, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The specification both programs meet at the exact (extended-real) reading: a linear layer
  `out[r, c] = (∑ k < 4096, x[r, k] · w[c, k]) + b[c]` over `x : [8192, 4096]`, a weight matrix `w : [4096, 4096]`
  stored one output feature per row, and a bias vector `b : [4096]`. The weight and the bias enter as arbitrary arrays:
  what the programs feed in (the binarized parameters) is the same term on both sides and is never opened.
-/
import Idealize.ShloMosaic.PureOps.Ideal
import Idealize.ShloMosaic.Lib.ValueIdx

noncomputable section

namespace Cert.Spec

open Idealize.ShloMosaic Idealize.ShloMosaic.ValueIdx

/-- The activations' and the result's shape, the weight's, and the bias's. -/
abbrev SX : Shape := ⟨2, ![8192, 4096]⟩
abbrev SW : Shape := ⟨2, ![4096, 4096]⟩
abbrev SB : Shape := ⟨1, ![4096]⟩

/-- The linear layer at output index `i = (r, c)`: row `r` of `x` against row `c` of `w`, plus `b` at `c`. -/
def linear (x : SX.Idx → EReal) (w : SW.Idx → EReal) (b : SB.Idx → EReal) : SX.Idx → EReal := fun i =>
  (∑ k : Fin 4096, x (ix2 (i 0) k) * w (ix2 (i 1) k)) + b (ix1 (i 1))

theorem linear_apply (x : SX.Idx → EReal) (w : SW.Idx → EReal) (b : SB.Idx → EReal) (r : Fin 8192) (c : Fin 4096) :
    linear x w b (ix2 r c) = (∑ k : Fin 4096, x (ix2 r k) * w (ix2 c k)) + b (ix1 c) := rfl

end Cert.Spec

end
-- ==== Proof.RefIsSpec.lean ====
/-
  The reference's result, over the extended reals, is the linear layer of the specification applied to the
  activations, the binarized weight and the binarized bias: its matrix product contracts the last axis of both operands
  (entry (r, c) sums `x[r, k] · w'[c, k]` over `k`), and the bias vector is laid along the last axis and repeated down
  the rows before the sum. The binarized weight and bias (zeros replaced by a small positive constant, then the sign)
  stay the reference's own stages, unopened.
-/
import proofs.«128095_j89833535963713_2_alg».proof.Proof.Gen.ReferenceIdeal.Read
import proofs.«128095_j89833535963713_2_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Read

/-- The reference's last stage is the specification's linear layer of its own binarized weight and bias stages. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v11 (F := Ideal) x0 x1 x2 = Cert.Spec.linear x0 (val_main_v3 (F := Ideal) x1) (val_main_v7 (F := Ideal) x2) := by
  funext i
  obtain ⟨r, c, rfl⟩ : ∃ (r : Fin 8192) (c : Fin 4096), i = ix2 r c := ⟨i 0, i 1, eq_ix2 i⟩
  have el : ∀ k : Fin 4096, lidx_main_v8 (ix2 r c) k = ix2 r k := fun k => funext fun a => Fin.ext (by
    match a with
    | ⟨0, _⟩ => rfl
    | ⟨1, _⟩ => rfl)
  have er : ∀ k : Fin 4096, ridx_main_v8 (ix2 r c) k = ix2 c k := fun k => funext fun a => Fin.ext (by
    match a with
    | ⟨0, _⟩ => rfl
    | ⟨1, _⟩ => rfl)
  have eb : idx_main_v9 (idx_main_v10 (ix2 r c)) = ix1 c := funext fun a => Fin.ext (by
    match a with
    | ⟨0, _⟩ => rfl)
  rw [val_main_v11_apply, val_main_v8_apply, val_main_v10_apply, val_main_v9_apply, Cert.Spec.linear_apply]
  simp only [el, er, eb]
  rfl

end Cert.ReferenceIdeal.RefValue

end
-- ==== Proof.Pieces.lean ====
/-
  What one run of the kernel body leaves behind, as values. The body keeps a [1024, 1024] accumulator between grid
  points. Writing `step x w acc` for "`acc` plus the product of the activation block `x` with the weight block `w`
  contracted over their last axes" (the body's second stored value) and `zero` for the all-zero block (its first):
    • at the first step of a reduction run the accumulator is zeroed and then stepped: it ends at `step x w zero`;
    • at a middle step it ends at `step x w acc`, `acc` being what the step before left;
    • at the last step likewise, and the output block is that accumulator plus the bias row broadcast down the rows
      (the body's third stored value).
  Each statement reads the one store that covers the buffer back through the whole-buffer rectangle at offset zero;
  the load of the accumulator that follows a store of it reads that store's value.
-/
import proofs.«128095_j89833535963713_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole-buffer rectangle are all zero. -/
theorem hz : (![0, 0] : Fin 2 → Nat) = fun _ => 0 := funext fun a => by fin_cases a <;> rfl

/-- First step of a run: the accumulator is zeroed, read back, and stepped once. -/
theorem scratch_A (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x1024 .f32) (x1 : Vec F S1024x1024 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle step: the accumulator the step before left, stepped once. -/
theorem scratch_B (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x1024 .f32) (x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x1024) hz]

/-- The last step leaves the accumulator stepped once, as a middle step does. -/
theorem scratch_C (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- The last step's output block: the stepped accumulator, read back, plus the bias row. -/
theorem out_C (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.Pieces

end
-- ==== Proof.Steps.lean ====
/-
  The accumulator's evolution along one reduction run, point by point. The run of row block I and column block J is
  the four consecutive points 16·I + 4·J + s, s = 0, 1, 2, 3. What a point leaves in the accumulator, over what the
  point before left (`acc`):
    • at the run's first point (index ≡ 0 mod 4): one step from the zero block, whatever `acc` was;
    • at every later point of the run: one step from `acc`.
  At the run's last point (index ≡ 3 mod 4) the output block is the accumulator that point leaves plus the bias row.
-/
import proofs.«128095_j89833535963713_2_alg».proof.Proof.Gen.KernelIdeal.Value
import proofs.«128095_j89833535963713_2_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- At a run's first point the accumulator ends one step from the zero block. -/
theorem first (c : Dev nD) (n : ℕ) (hb : n < cfg0.N) (h0 : n % 4 = 0) (acc : Vec F S1024x1024 .f32) :
    Value.scAt0_0 m c n hb acc
      = k0_pay2 (iblk m c 0 (⟨n, hb⟩ : Fin cfg0.N)) (iblk m c 1 (⟨n, hb⟩ : Fin cfg0.N)) (k0_pay1 (F := F)) := by
  have h1 : ¬n % 4 = 3 := by omega
  unfold Value.scAt0_0
  rw [dif_pos h0, dif_neg h1]
  exact Pieces.scratch_A (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _
    (iblk m c 0 (⟨n, hb⟩ : Fin cfg0.N)) (iblk m c 1 (⟨n, hb⟩ : Fin cfg0.N)) (iblk m c 2 (⟨n, hb⟩ : Fin cfg0.N))

/-- At every later point of a run the accumulator ends one step from what the point before left. -/
theorem later (c : Dev nD) (n : ℕ) (hb : n < cfg0.N) (h0 : ¬n % 4 = 0) (acc : Vec F S1024x1024 .f32) :
    Value.scAt0_0 m c n hb acc
      = k0_pay2 (iblk m c 0 (⟨n, hb⟩ : Fin cfg0.N)) (iblk m c 1 (⟨n, hb⟩ : Fin cfg0.N)) acc := by
  unfold Value.scAt0_0
  rw [dif_neg h0]
  by_cases h1 : n % 4 = 3
  · rw [dif_pos h1]
    exact Pieces.scratch_C (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _
      (iblk m c 0 (⟨n, hb⟩ : Fin cfg0.N)) (iblk m c 1 (⟨n, hb⟩ : Fin cfg0.N)) (iblk m c 2 (⟨n, hb⟩ : Fin cfg0.N)) acc
  · rw [dif_neg h1]
    exact Pieces.scratch_B (F := F) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _
      (iblk m c 0 (⟨n, hb⟩ : Fin cfg0.N)) (iblk m c 1 (⟨n, hb⟩ : Fin cfg0.N)) (iblk m c 2 (⟨n, hb⟩ : Fin cfg0.N)) acc

/-- At a run's last point the output block is the accumulator that point leaves plus the bias row. -/
theorem out_last (c : Dev nD) (t : Fin cfg0.N) (h1 : t.val % 4 = 3) :
    (outsAt0 m c t.val t.isLt).1 = k0_pay3 ((outsAt0 m c t.val t.isLt).2) (iblk m c 2 t) := by
  have h0 : ¬t.val % 4 = 0 := by omega
  rw [outsAt0_C m c t h0 h1]
  dsimp only
  rw [Pieces.out_C (F := F) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
      (outsAt0 m c (t.val - 1) (Nat.lt_of_le_of_lt (Nat.sub_le _ _) t.isLt)).2,
    Pieces.scratch_C (F := F) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t)
      (outsAt0 m c (t.val - 1) (Nat.lt_of_le_of_lt (Nat.sub_le _ _) t.isLt)).2]

end Cert.KernelIdeal.Steps

end
-- ==== Proof.Payload.lean ====
/-
  The body's three stored values read at one index (p, q) of the [1024, 1024] block, over the extended reals:
    • the zero block is `0` everywhere;
    • a step reads `acc[p, q] + ∑ e < 1024, x[p, e] · w[q, e]` — the activation block's narrowing to sixteen bits is the
      identity on exact values, and the matrix unit's product into a zero accumulator is the plain sum over the
      contracted axis, the last axis of both operands;
    • the output block reads `acc[p, q] + bias[0, q]`: the [1, 1024] bias row broadcast down the rows.
-/
import proofs.«128095_j89833535963713_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- The zero block. -/
theorem zero_apply (j : S1024x1024.Idx) : k0_pay1 (F := Ideal) j = 0 := by
  unfold k0_pay1
  rw [shapeCast_self]
  exact Ideal.ofBits_zero_f32

/-! The block product's operand indices at output index `j` and contraction index `q`: the left operand at
    (row of `j`, `q`), the right operand at (column of `j`, `q`). -/

theorem lhs_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- One step at (p, q): the accumulator there plus row `p` of the activation block against row `q` of the weight block. -/
theorem step_apply (x0 : Vec Ideal S1024x1024 .f32) (x1 : Vec Ideal S1024x1024 .bf16) (acc : Vec Ideal S1024x1024 .f32)
    (p q : Fin 1024) :
    k0_pay2 x0 x1 acc (ix2 p q) = acc (ix2 p q) + ∑ e : Fin 1024, x0 (ix2 p e) * x1 (ix2 q e) := by
  unfold k0_pay2
  rw [shapeCast_self, shapeCast_self]
  show acc (ix2 p q) + FloatOps.matmul dot_S1024x1024_S1024x1024_S1024x1024_1_1_0_0_n_n none
      (truncf (F := Ideal) .bf16 x0 bitsLt_bf16_f32) x1 (constant (F := Ideal) S1024x1024 .f32 0x00000000#32) (ix2 p q) = _
  rw [Ideal.matmul_constant_zero_apply,
    ← Equiv.sum_comp (contrEquiv1 dot_S1024x1024_S1024x1024_S1024x1024_1_1_0_0_n_n 1024 rfl rfl).symm]
  refine congrArg (acc (ix2 p q) + ·) (Finset.sum_congr rfl fun e _ => ?_)
  have he := contrEquiv1_symm_val dot_S1024x1024_S1024x1024_S1024x1024_1_1_0_0_n_n 1024 rfl rfl e
  have el : dot_S1024x1024_S1024x1024_S1024x1024_1_1_0_0_n_n.lhsIdx (ix2 p q)
      ((contrEquiv1 dot_S1024x1024_S1024x1024_S1024x1024_1_1_0_0_n_n 1024 rfl rfl).symm e) = ix2 p e :=
    funext fun a => Fin.ext (by
      match a with
      | ⟨0, _⟩ => exact lhs_0 _ _
      | ⟨1, _⟩ => exact (lhs_1 _ _).trans he)
  have er : dot_S1024x1024_S1024x1024_S1024x1024_1_1_0_0_n_n.rhsIdx (ix2 p q)
      ((contrEquiv1 dot_S1024x1024_S1024x1024_S1024x1024_1_1_0_0_n_n 1024 rfl rfl).symm e) = ix2 q e :=
    funext fun a => Fin.ext (by
      match a with
      | ⟨0, _⟩ => exact rhs_0 _ _
      | ⟨1, _⟩ => exact (rhs_1 _ _).trans he)
  rw [el, er]
  rfl

/-- The output block at (p, q): the accumulator there plus the bias row at column `q`. -/
theorem out_apply (acc : Vec Ideal S1024x1024 .f32) (bias : Vec Ideal S1x1024 .f32) (p q : Fin 1024) :
    k0_pay3 acc bias (ix2 p q) = acc (ix2 p q) + bias (ix2 (0 : Fin 1) q) := by
  unfold k0_pay3
  rw [shapeCast_self]
  show acc (ix2 p q) + broadcastTo S1024x1024 bias broadcasts_S1x1024_S1024x1024 (ix2 p q) = _
  rw [broadcastTo_apply bias broadcasts_S1x1024_S1024x1024 (ix2 p q) (ix2 (0 : Fin 1) q) (fun a => by
    match a with
    | ⟨0, _⟩ => rfl
    | ⟨1, _⟩ => rfl)]

end Cert.KernelIdeal.Payload

end
-- ==== Proof.Entry.lean ====
/-
  What the kernel region finds when it is entered, and what its input blocks read.

  Before the region the program binarizes the parameters once: a zero entry is replaced by a small positive constant,
  then the sign is taken (`wbin` for the [4096, 4096] weight, `bbin` for the [4096] bias). The weight is then narrowed
  to sixteen bits — the identity on exact values — and the bias laid out as one row [1, 4096].

  The grid has 8 × 4 × 4 points; point `t` is row block `t / 16`, column block `t / 4 % 4`, reduction step `t % 4`.
  At point `t` the activation block is rows `1024·(t / 16) + p`, columns `1024·(t % 4) + e` of the activations; the
  weight block is rows `1024·(t / 4 % 4) + q`, columns `1024·(t % 4) + e` of the binarized weight; the bias block is
  columns `1024·(t / 4 % 4) + q` of the bias row.
-/
import proofs.«128095_j89833535963713_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.KernelIdeal.Entry

open Cert.KernelIdeal Cert.KernelIdeal.Gen

section AnyValues

variable {F : FTy → Type} [FloatOps F]
variable (m : (ℓ : Loc nD τ sig) → Buf (Elt F) ℓ)

/-- The binarized weight: zeros replaced by the small positive constant, then the sign. -/
def wbin (x1 : S4096x4096.Idx → Elt F .f32) : S4096x4096.Idx → Elt F .f32 :=
  Host.sign (select (cmpf .oeq x1 (broadcastInDim S4096x4096 ![] bcast_S_S4096x4096 (constant S_ .f32 0x00000000#32)))
    (broadcastInDim S4096x4096 ![] bcast_S_S4096x4096 (id (constant S_ .f32 0x2EDBE6FF#32))) x1)

/-- The binarized bias, likewise. -/
def bbin (x2 : S4096.Idx → Elt F .f32) : S4096.Idx → Elt F .f32 :=
  Host.sign (select (cmpf .oeq x2 (broadcastInDim S4096 ![] bcast_S_S4096 (constant S_ .f32 0x00000000#32)))
    (broadcastInDim S4096 ![] bcast_S_S4096 (id (constant S_ .f32 0x2EDBE6FF#32))) x2)

/-- The weight window's array at region entry: the binarized weight, narrowed to sixteen bits. -/
theorem weight_entry (c : Dev nD) :
    (V m c main_v4 : S4096x4096.Idx → Elt F .bf16)
      = truncf .bf16 (wbin (m ((c : Thread nD τ).loc main_arg1))) bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The bias window's array at region entry: the binarized bias as one row. -/
theorem bias_entry (c : Dev nD) :
    (V m c main_v9 : S1x4096.Idx → Elt F .f32)
      = shapeCast S1x4096 (bbin (m ((c : Thread nD τ).loc main_arg2))) shapeCasts_S4096_S1x4096 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The windows' block indices at every grid point, decided over the grid's 128 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The activation block at point `t`, entry (p, e): the activations at (r, k). -/
theorem xblk_apply (c : Dev nD) (t : Fin cfg0.N) (p e : Fin 1024) (r : Fin 8192) (k : Fin 4096)
    (hr : r.val = 1024 * (t.val / 16) + p.val) (hk : k.val = 1024 * (t.val % 4) + e.val) :
    (iblk m c 0 t : Vec F S1024x1024 .f32) (ix2 p e) = m ((c : Thread nD τ).loc main_arg0) (ix2 r k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = r.val; omega
  | ⟨1, _⟩ => show win0_0.index t (1 : Fin 2) * 1024 + 1 * e.val = k.val; omega

/-- The weight block at point `t`, entry (q, e): the weight window's array at (cc, k). -/
theorem wblk_apply (c : Dev nD) (t : Fin cfg0.N) (q e : Fin 1024) (cc k : Fin 4096)
    (hc : cc.val = 1024 * (t.val / 4 % 4) + q.val) (hk : k.val = 1024 * (t.val % 4) + e.val) :
    (iblk m c 1 t : Vec F S1024x1024 .bf16) (ix2 q e) = (V m c main_v4 : S4096x4096.Idx → Elt F .bf16) (ix2 cc k) := by
  obtain ⟨-, -, e2, e3, -⟩ := idx_facts t
  unfold iblk
  rw [View.read_apply]
  show V m c main_v4 _ = _
  congr 1
  funext a
  apply Fin.ext
  match a with
  | ⟨0, _⟩ => show win0_1.index t (0 : Fin 2) * 1024 + 1 * q.val = cc.val; omega
  | ⟨1, _⟩ => show win0_1.index t (1 : Fin 2) * 1024 + 1 * e.val = k.val; omega

/-- The bias block at point `t`, entry (0, q): the bias window's array at (0, cc). -/
theorem bblk_apply (c : Dev nD) (t : Fin cfg0.N) (q : Fin 1024) (cc : Fin 4096)
    (hc : cc.val = 1024 * (t.val / 4 % 4) + q.val) :
    (iblk m c 2 t : Vec F S1x1024 .f32) (ix2 (0 : Fin 1) q) = (V m c main_v9 : S1x4096.Idx → Elt F .f32) (ix2 (0 : Fin 1) cc) := by
  obtain ⟨-, -, -, -, e4, e5, -⟩ := idx_facts t
  unfold iblk
  rw [View.read_apply]
  show V m c main_v9 _ = _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = cc.val; omega

end AnyValues

/-! Over the extended reals the narrowing is the identity and the one-row layout reads the vector at its column. -/

section Exact

variable (m : (ℓ : Loc nD τ sig) → Buf (Elt Ideal) ℓ)

/-- The weight block read exactly: the binarized weight at (cc, k). -/
theorem wblk_exact (c : Dev nD) (t : Fin cfg0.N) (q e : Fin 1024) (cc k : Fin 4096)
    (hc : cc.val = 1024 * (t.val / 4 % 4) + q.val) (hk : k.val = 1024 * (t.val % 4) + e.val) :
    (iblk m c 1 t : Vec Ideal S1024x1024 .bf16) (ix2 q e) = wbin (m ((c : Thread nD τ).loc main_arg1)) (ix2 cc k) := by
  rw [wblk_apply m c t q e cc k hc hk, weight_entry]
  rfl

/-- The bias block read exactly: the binarized bias at cc. -/
theorem bblk_exact (c : Dev nD) (t : Fin cfg0.N) (q : Fin 1024) (cc : Fin 4096)
    (hc : cc.val = 1024 * (t.val / 4 % 4) + q.val) :
    (iblk m c 2 t : Vec Ideal S1x1024 .f32) (ix2 (0 : Fin 1) q) = bbin (m ((c : Thread nD τ).loc main_arg2)) (ix1 cc) := by
  rw [bblk_apply m c t q cc hc, bias_entry]
  refine shapeCast_apply _ shapeCasts_S4096_S1x4096 (ix2 (0 : Fin 1) cc) (ix1 cc) ?_
  rw [Shape.rowMajor_val_one, Shape.rowMajor_val_two]
  show cc.val = 0 * 4096 + cc.val
  omega

end Exact

end Cert.KernelIdeal.Entry

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Fold.lean ====
/-
  One output block entry against the specification.

  Along a reduction run each point adds its own term to the accumulator: at block index (p, q), point `n` adds
  `∑ e < 1024, xblockₙ[p, e] · wblockₙ[q, e]` (its `addend`). The accumulator after the run's s-th point is therefore
  `0` plus the addends of the run's points so far, and the output block written at the run's last point is that sum
  over all four points plus the bias row.

  Point 16·I + 4·J + s reads columns 1024·s … 1024·s + 1023 of row 1024·I + p of the activations and of row
  1024·J + q of the binarized weight, so the four addends are the four consecutive quarters of the specification's sum
  over k < 4096 for output entry (1024·I + p, 1024·J + q). Regrouping a sum into consecutive blocks needs only that
  addition is commutative and associative, which holds on the extended reals: no finiteness of the inputs is used.
-/
import proofs.«128095_j89833535963713_2_alg».proof.Proof.Steps
import proofs.«128095_j89833535963713_2_alg».proof.Proof.Payload
import proofs.«128095_j89833535963713_2_alg».proof.Proof.Entry
import proofs.«128095_j89833535963713_2_alg».proof.Proof.Spec
import proofs.«128095_j89833535963713_2_alg».proof.Proof.LibBlockSum

noncomputable section

open Idealize.ShloMosaic Idealize.ShloMosaic.TcCoe Idealize.SL.Sem Idealize.ShloMosaic.ValueIdx

namespace Cert.KernelIdeal.Fold

open Cert.KernelIdeal Cert.KernelIdeal.Gen

variable (m : (ℓ : Loc nD τ sig) → Buf (Elt Ideal) ℓ)

/-- The activation block and the weight block at point `n`, as plain arrays of extended reals. -/
abbrev xblk (c : Dev nD) (n : ℕ) (h : n < cfg0.N) : S1024x1024.Idx → EReal := iblk m c 0 (⟨n, h⟩ : Fin cfg0.N)
abbrev wblk (c : Dev nD) (n : ℕ) (h : n < cfg0.N) : S1024x1024.Idx → EReal := iblk m c 1 (⟨n, h⟩ : Fin cfg0.N)

/-- What point `n` adds to the accumulator at block index `i`: row `i 0` of its activation block against row `i 1`
    of its weight block (zero for a number past the grid, which is never a point). -/
def addend (c : Dev nD) (n : ℕ) (i : S1024x1024.Idx) : EReal :=
  if h : n < cfg0.N then ∑ e : Fin 1024, xblk m c n h (ix2 (i 0) e) * wblk m c n h (ix2 (i 1) e) else 0

/-- One step from `acc` at point `n`, at a block index: `acc` there plus the point's addend. -/
theorem step_addend (c : Dev nD) (n : ℕ) (hb : n < cfg0.N) (acc : Vec Ideal S1024x1024 .f32) (i : S1024x1024.Idx) :
    k0_pay2 (iblk m c 0 (⟨n, hb⟩ : Fin cfg0.N)) (iblk m c 1 (⟨n, hb⟩ : Fin cfg0.N)) acc i = acc i + addend m c n i := by
  obtain ⟨p, q, rfl⟩ : ∃ p q : Fin 1024, i = ix2 p q := ⟨i 0, i 1, eq_ix2 i⟩
  unfold addend
  rw [dif_pos hb]
  exact Payload.step_apply (iblk m c 0 (⟨n, hb⟩ : Fin cfg0.N)) (iblk m c 1 (⟨n, hb⟩ : Fin cfg0.N)) acc p q

/-- The accumulator after point `t`: zero plus the addends of its run's points up to `t`. -/
theorem acc_apply (c : Dev nD) (t : Fin cfg0.N) (i : S1024x1024.Idx) :
    (outsAt0 m c t.val t.isLt).2 i = 0 + ∑ s ∈ Finset.range (t.val % 4 + 1), addend m c (4 * (t.val / 4) + s) i := by
  have hN : cfg0.N = 128 := N_0
  have ht := t.isLt
  rw [Value.soutsAt0_0_eq m c t]
  refine Pipeline.accAt_add_apply (fun n h => Value.scAt0_0 m c n h (VS0_0.read (Elt Ideal) VS0_0.junk)) (Value.scAt0_0 m c)
    (fun _ => 0) (addend m c) (4 * (t.val / 4)) 3 ?_ ?_ (t.val % 4) (by omega) _ i
  · intro h j
    show Value.scAt0_0 m c (4 * (t.val / 4)) h _ j = 0 + addend m c (4 * (t.val / 4)) j
    rw [Steps.first m c (4 * (t.val / 4)) h (by omega), step_addend, Payload.zero_apply]
  · intro n h acc j hlo hhi
    rw [Steps.later m c n h (by omega) acc, step_addend]

/-- THE OUTPUT BLOCK ENTRY. At a run's last point `t`, entry (p, q) of the output block is the specification's linear
    layer of the activations, the binarized weight and the binarized bias at (r, cc), the array position of that entry:
    `r = 1024·(t / 16) + p`, `cc = 1024·(t / 4 % 4) + q`. -/
theorem block_entry (c : Dev nD) (t : Fin cfg0.N) (h3 : t.val % 4 = 3) (p q : Fin 1024) (r : Fin 8192) (cc : Fin 4096)
    (hr : r.val = 1024 * (t.val / 16) + p.val) (hc : cc.val = 1024 * (t.val / 4 % 4) + q.val) :
    (outsAt0 m c t.val t.isLt).1 (ix2 p q)
      = Cert.Spec.linear (m ((c : Thread nD τ).loc main_arg0)) (Entry.wbin (m ((c : Thread nD τ).loc main_arg1)))
          (Entry.bbin (m ((c : Thread nD τ).loc main_arg2))) (ix2 r cc) := by
  have hN : cfg0.N = 128 := N_0
  have ht := t.isLt
  rw [Steps.out_last m c t h3, Payload.out_apply, acc_apply m c t (ix2 p q), Cert.Spec.linear_apply,
    Entry.bblk_exact m c t q cc hc, h3, zero_add]
  refine congrArg (· + Entry.bbin (m ((c : Thread nD τ).loc main_arg2)) (ix1 cc)) ?_
  -- the specification's sum over k < 4096 as its four consecutive quarters
  refine Eq.trans ?_ (Cert.Lib.BlockSum.sum_fin_mul_fin 4 1024 _).symm
  rw [Finset.sum_range]
  refine Finset.sum_congr rfl fun s _ => ?_
  have hs4 : s.val < 4 := s.isLt
  have hn : 4 * (t.val / 4) + s.val < cfg0.N := by omega
  unfold addend
  rw [dif_pos hn]
  refine Finset.sum_congr rfl fun e _ => ?_
  have he : e.val < 1024 := e.isLt
  exact congrArg₂ (· * ·)
    (Entry.xblk_apply m c (⟨4 * (t.val / 4) + s.val, hn⟩ : Fin cfg0.N) p e r (finProdFinEquiv (s, e))
      (by show r.val = 1024 * ((4 * (t.val / 4) + s.val) / 16) + p.val; omega)
      (by show e.val + 1024 * s.val = 1024 * ((4 * (t.val / 4) + s.val) % 4) + e.val; omega))
    (Entry.wblk_exact m c (⟨4 * (t.val / 4) + s.val, hn⟩ : Fin cfg0.N) q e cc (finProdFinEquiv (s, e))
      (by show cc.val = 1024 * ((4 * (t.val / 4) + s.val) / 4 % 4) + q.val; omega)
      (by show e.val + 1024 * s.val = 1024 * ((4 * (t.val / 4) + s.val) % 4) + e.val; omega))

end Cert.KernelIdeal.Fold

end
-- ==== Proof.Final.lean ====
/-
  The kernel's result array after the run is the specification's linear layer of the activations, the binarized weight
  and the binarized bias.

  The output window's block at point `t` is rows 1024·(t / 16) …, columns 1024·(t / 4 % 4) … of the [8192, 4096] result,
  and it is written back exactly at the last point of each reduction run (`t % 4 = 3`). What is written back there is,
  entry by entry, the specification at the entry's array position; and every position (r, c) of the result lies in the
  block written at point `16·(r / 1024) + 4·(c / 1024) + 3`. So the array ends holding the specification everywhere.
-/
import proofs.«128095_j89833535963713_2_alg».proof.Proof.Fold

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ) (ρ : Dev nD → PrngReg)

/-- What the result array ends holding. -/
abbrev result (c : Dev nD) : Buf (Elt Ideal) ((c : Thread nD τ).loc main_v10) :=
  Cert.Spec.linear (m ((c : Thread nD τ).loc main_arg0)) (Entry.wbin (m ((c : Thread nD τ).loc main_arg1)))
    (Entry.bbin (m ((c : Thread nD τ).loc main_arg2)))

/-- What a run's last point writes back is its block of `result`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : cfg0.N = 128 := N_0
  have ht := t.isLt
  obtain ⟨-, -, -, -, -, -, e6, e7⟩ := Entry.idx_facts t
  rw [Value.flushed3]
  have key : ∀ j : S1024x1024.Idx,
      (outsAt0 m c t.val t.isLt).1 j = result m c (((cfg0.win 3).blk t).view.emb j) := by
    intro j
    have hj0 : (j 0).val < 1024 := idx2_lt0 j
    have hj1 : (j 1).val < 1024 := idx2_lt1 j
    have e : ((cfg0.win 3).blk t).view.emb j
        = ix2 (⟨1024 * (t.val / 16) + (j 0).val, by omega⟩ : Fin 8192) (⟨1024 * (t.val / 4 % 4) + (j 1).val, by omega⟩ : Fin 4096) :=
      funext fun a => Fin.ext (by
        match a with
        | ⟨0, _⟩ => show win0_3.index t (0 : Fin 2) * 1024 + 1 * (j 0).val = 1024 * (t.val / 16) + (j 0).val; omega
        | ⟨1, _⟩ => show win0_3.index t (1 : Fin 2) * 1024 + 1 * (j 1).val = 1024 * (t.val / 4 % 4) + (j 1).val; omega)
    rw [e]
    exact (congrArg _ (eq_ix2 j)).trans (Fold.block_entry m c t h3 (j 0) (j 1) _ _ rfl rfl)
  funext j
  exact key j

/-- An array position is in point `t`'s output block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v10).slice (win0_3.rect t)).set ↔ _
  rw [View.set_slice_whole, Rect.mem_set_unit]
  exact Iff.rfl

/-- Every position of the result is in the block some run's last point writes back. -/
theorem cover (i : S8192x4096.Idx) :
    ∃ t : Fin cfg0.N, (cfg0.win 3).flush t = true ∧ i ∈ ((cfg0.win 3).blk t).view.set := by
  have hN : cfg0.N = 128 := N_0
  have h0 : (i 0).val < 8192 := idx2_lt0 i
  have h1 : (i 1).val < 4096 := idx2_lt1 i
  obtain ⟨t, tv⟩ : ∃ t : Fin cfg0.N, t.val = 16 * ((i 0).val / 1024) + 4 * ((i 1).val / 1024) + 3 := ⟨⟨_, by omega⟩, rfl⟩
  obtain ⟨-, -, -, -, -, -, e6, e7⟩ := Entry.idx_facts t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The result array after the run. -/
theorem final (c : Dev nD) : (dats m 0 c).arrAt 3 cfg0.N = result m c :=
  (dats m 0 c).arrAt_eq_of_cover 3 (result m c) (flushed_eq m c) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.lean ====
/-
  A binary linear layer: `out = x · sign'(W)ᵀ + sign'(b)` for `x : [8192, 4096]`, `W : [4096, 4096]`, `b : [4096]`, where
  `sign'` first replaces a zero by a small positive constant and then takes the sign.

  Both programs binarize the parameters by the same operations before anything else, so the binarized weight `w'` and
  bias `b'` are one and the same term on both sides and are never opened. The reference then takes one matrix product
  over the whole contracted axis and adds the bias: entry (r, c) is `(∑ k < 4096, x[r, k] · w'[c, k]) + b'[c]`. The
  kernel tiles the output into 8 × 4 blocks of 1024 × 1024 and, for each block, walks the contracted axis in four steps
  of 1024, adding each step's partial product into an accumulator that starts at zero, and adds the bias row when it
  writes the block out: entry (r, c) is `((((0 + S₀) + S₁) + S₂) + S₃) + b'[c]` with
  `Sₛ = ∑ e < 1024, x[r, 1024·s + e] · w'[c, 1024·s + e]`. Read exactly (over the extended reals, where a change of float
  format is the identity and every operation is the textbook one) the two agree, because a sum over 4096 consecutive
  indices is the sum of its four consecutive quarters; this uses only that addition is commutative and associative, so
  the finiteness of the inputs is never needed. The idealization rewrote nothing, so it is preserved trivially.

  The modules: `Spec` (the linear layer as one function), `LibBlockSum` (a sum regrouped into consecutive blocks),
  `RefIsSpec` (the reference is the specification), `Pieces` and `Steps` (what one run of the body leaves, and the
  accumulator along a reduction run), `Payload` (the body's stored values at an index), `Entry` (the binarized
  parameters as the region finds them, and the blocks at an index), `Fold` (an output block entry against the
  specification), `Final` (the result array after the run).
-/
import proofs.«128095_j89833535963713_2_alg».proof.Defs
import proofs.«128095_j89833535963713_2_alg».proof.Proof.Gen.Kernel
import proofs.«128095_j89833535963713_2_alg».proof.Proof.Gen.Kernel.Skeleton
import proofs.«128095_j89833535963713_2_alg».proof.Proof.Gen.Kernel.Launch
import proofs.«128095_j89833535963713_2_alg».proof.Proof.Gen.Kernel.Points
import proofs.«128095_j89833535963713_2_alg».proof.Proof.Gen.Kernel.Frame
import proofs.«128095_j89833535963713_2_alg».proof.Proof.Gen.KernelIdeal
import proofs.«128095_j89833535963713_2_alg».proof.Proof.Gen.KernelIdeal.Skeleton
import proofs.«128095_j89833535963713_2_alg».proof.Proof.Gen.KernelIdeal.Launch
import proofs.«128095_j89833535963713_2_alg».proof.Proof.Gen.KernelIdeal.Points
import proofs.«128095_j89833535963713_2_alg».proof.Proof.Gen.KernelIdeal.Frame
import proofs.«128095_j89833535963713_2_alg».proof.Proof.Gen.ReferenceIdeal
import proofs.«128095_j89833535963713_2_alg».proof.Proof.Gen.Pre_finite_inputs
import proofs.«128095_j89833535963713_2_alg».proof.Proof.Gen.KernelIdeal.Value
import proofs.«128095_j89833535963713_2_alg».proof.Proof.Gen.ReferenceIdeal.Run
import proofs.«128095_j89833535963713_2_alg».proof.Proof.Gen.ReferenceIdeal.Read
import proofs.«128095_j89833535963713_2_alg».proof.Proof.RefIsSpec
import proofs.«128095_j89833535963713_2_alg».proof.Proof.Final
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its exact reading. -/
theorem frame_ki : Cert.frame_KernelIdeal := fun m ρ _ => Cert.KernelIdeal.Gen.frame m ρ

/-- The reference is a straight line of whole-array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- The binarized weight and bias are the same terms in both programs. -/
theorem wbin_eq (x1 : Cert.KernelIdeal.S4096x4096.Idx → EReal) :
    Cert.ReferenceIdeal.Read.val_main_v3 (F := Ideal) x1 = Cert.KernelIdeal.Entry.wbin (F := Ideal) x1 := rfl
theorem bbin_eq (x2 : Cert.KernelIdeal.S4096.Idx → EReal) :
    Cert.ReferenceIdeal.Read.val_main_v7 (F := Ideal) x2 = Cert.KernelIdeal.Entry.bbin (F := Ideal) x2 := rfl

/-- Read exactly, from memories that agree on the arguments, both programs end with the linear layer of the
    activations and the binarized parameters in their result arrays. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2, wbin_eq, bbin_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
